-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x200 : Shape := ⟨2, ![100000, 200]⟩
abbrev S500x200 : Shape := ⟨2, ![500, 200]⟩
abbrev S512 : Shape := ⟨1, ![512]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S500x200 : S_.BroadcastsInDim S500x200 (![] : Fin 0 → Fin S500x200.rank)
  reducesTo_S500x200_S_d0_1 : S500x200.ReducesTo [0, 1] S_

variable [Facts]

def fn_part1 {F : FTy → Type} [FloatOps F] (main_v13 : IVec S_ 1) (main_v16 : IVec S500x200 1) : IVec S_ 1 :=
  let main_c_5 : IVec S_ 1 := constantI S_ 1 1#1
  let main_v17 : IVec S_ 1 := (fun x v => Host.reduce IntOp.andi x v reducesTo_S500x200_S_d0_1 h_S_) main_v16 main_c_5
  let main_v18 : IVec S_ 1 := andi main_v13 main_v17
  main_v18

def fn {F : FTy → Type} [FloatOps F] (main_arg0 : FVec F S100000x200 .f32) (main_arg1 : FVec F S100000x200 .f32) (main_arg2 : FVec F S500x200 .f32) (main_arg3 : FVec F S500x200 .f32) (main_arg4 : IVec S512 32) (main_arg5 : IVec S512 32) : IVec S_ 1 :=
  let main_v0 : FVec F S100000x200 .f32 := Host.absf main_arg0
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S100000x200 .f32 := Host.absf main_arg1
  let main_cst_0 : FVec F S_ .f32 := constant S_ .f32 0x7F800000#32
  let main_v5 : FVec F S100000x200 .f32 := broadcastInDim S100000x200 ![] bcast_S_S100000x200 main_cst_0
  let main_v6 : IVec S100000x200 1 := cmpf .olt main_v4 main_v5
  let main_c_1 : IVec S_ 1 := constantI S_ 1 1#1
  let main_v7 : IVec S_ 1 := (fun x v => Host.reduce IntOp.andi x v reducesTo_S100000x200_S_d0_1 h_S_) main_v6 main_c_1
  let main_v8 : IVec S_ 1 := andi main_v3 main_v7
  let main_v9 : FVec F S500x200 .f32 := Host.absf main_arg2
  let main_cst_2 : FVec F S_ .f32 := constant S_ .f32 0x7F800000#32
  let main_v10 : FVec F S500x200 .f32 := broadcastInDim S500x200 ![] bcast_S_S500x200 main_cst_2
  let main_v11 : IVec S500x200 1 := cmpf .olt main_v9 main_v10
  let main_c_3 : IVec S_ 1 := constantI S_ 1 1#1
  let main_v12 : IVec S_ 1 := (fun x v => Host.reduce IntOp.andi x v reducesTo_S500x200_S_d0_1 h_S_) main_v11 main_c_3
  let main_v13 : IVec S_ 1 := andi main_v8 main_v12
  let main_v14 : FVec F S500x200 .f32 := Host.absf main_arg3
  let main_cst_4 : FVec F S_ .f32 := constant S_ .f32 0x7F800000#32
  let main_v15 : FVec F S500x200 .f32 := broadcastInDim S500x200 ![] bcast_S_S500x200 main_cst_4
  let main_v16 : IVec S500x200 1 := cmpf .olt main_v14 main_v15
  fn_part1 (F := F) main_v13 main_v16
-- ==== Kernel.lean ====
abbrev S100000x200 : Shape := ⟨2, ![100000, 200]⟩
abbrev S500x200 : Shape := ⟨2, ![500, 200]⟩
abbrev S512 : Shape := ⟨1, ![512]⟩
abbrev S_ : Shape := ⟨0, ![]⟩
abbrev S512x1 : Shape := ⟨2, ![512, 1]⟩
abbrev S512x200 : Shape := ⟨2, ![512, 200]⟩
abbrev S512x100000 : Shape := ⟨2, ![512, 100000]⟩
abbrev S2048x200 : Shape := ⟨2, ![2048, 200]⟩
abbrev S512x2048 : Shape := ⟨2, ![512, 2048]⟩

abbrev nBuf : Space → Nat
  | .hbm => 49
  | .vmem => 8
  | .smem => 0
  | _ => 0

abbrev bufTy : (tb : Table) → Fin (tcTables nBuf tb) → BufTy
  | .hbm, ⟨0, _⟩ => ⟨S100000x200, .f32⟩
  | .hbm, ⟨1, _⟩ => ⟨S100000x200, .f32⟩
  | .hbm, ⟨2, _⟩ => ⟨S500x200, .f32⟩
  | .hbm, ⟨3, _⟩ => ⟨S500x200, .f32⟩
  | .hbm, ⟨4, _⟩ => ⟨S512, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S512x200, .f32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S512x1, .i32⟩
  | .hbm, ⟨23, _⟩ => ⟨S512x200, .f32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x200, .f32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S512x1, .i32⟩
  | .hbm, ⟨41, _⟩ => ⟨S512x200, .f32⟩
  | .hbm, ⟨42, _⟩ => ⟨S512x200, .f32⟩
  | .hbm, ⟨43, _⟩ => ⟨S512x200, .f32⟩
  | .hbm, ⟨44, _⟩ => ⟨S512x200, .f32⟩
  | .hbm, ⟨45, _⟩ => ⟨S512x200, .f32⟩
  | .hbm, ⟨46, _⟩ => ⟨S512x200, .f32⟩
  | .hbm, ⟨47, _⟩ => ⟨S512x200, .f32⟩
  | .hbm, ⟨48, _⟩ => ⟨S512x100000, .f32⟩
  | .local _ .vmem, ⟨0, _⟩ => ⟨S512x200, .f32⟩
  | .local _ .vmem, ⟨1, _⟩ => ⟨S512x200, .f32⟩
  | .local _ .vmem, ⟨2, _⟩ => ⟨S2048x200, .f32⟩
  | .local _ .vmem, ⟨3, _⟩ => ⟨S2048x200, .f32⟩
  | .local _ .vmem, ⟨4, _⟩ => ⟨S2048x200, .f32⟩
  | .local _ .vmem, ⟨5, _⟩ => ⟨S2048x200, .f32⟩
  | .local _ .vmem, ⟨6, _⟩ => ⟨S512x2048, .f32⟩
  | .local _ .vmem, ⟨7, _⟩ => ⟨S512x2048, .f32⟩
  | _, _ => ⟨S100000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x200 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  inb_S512x200_S512x200_0_0 : ∀ a, (![0, 0] : Fin 2 → Nat) a + S512x200.size a ≤ S512x200.size a
  h_S512x200 : 0 < S512x200.numel
  shapeCasts_S512x200_S512x200 : S512x200.ShapeCasts S512x200
  bitsLt_bf16_f32 : FTy.bits .bf16 < FTy.bits .f32
  inb_S2048x200_S2048x200_0_0 : ∀ a, (![0, 0] : Fin 2 → Nat) a + S2048x200.size a ≤ S2048x200.size a
  h_S2048x200 : 0 < S2048x200.numel
  inb_S512x2048_S512x2048_0_0 : ∀ a, (![0, 0] : Fin 2 → Nat) a + S512x2048.size a ≤ S512x2048.size a
  h_S512x2048 : 0 < S512x2048.numel
  gather_S100000x200_S512x1_S512x200_1_0_n_n_0_1_1200_wf : GatherDims.WF S100000x200 S512x1 S512x200 [1] [0] [] [0] [] 1 ![1, 200]
  gather_S500x200_S512x1_S512x200_1_0_n_n_0_1_1200_wf : GatherDims.WF S500x200 S512x1 S512x200 [1] [0] [] [0] [] 1 ![1, 200]
  dot_S512x200_S2048x200_S512x2048_1_1_0_0_n_n_wf : DotDims.WF S512x200 S2048x200 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x200.size a ≤ S512x200.size a
  hwx0_0 : ∀ i : grid0.Coords, EltTy.bits .f32 = 32 ∨ (Rect.block (s := S512x200) S512x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x200.size a ≤ S512x200.size a
  hwx0_1 : ∀ i : grid0.Coords, EltTy.bits .f32 = 32 ∨ (Rect.block (s := S512x200) S512x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x200.size a < S100000x200.size a
  hwx0_2 : ∀ i : grid0.Coords, EltTy.bits .f32 = 32 ∨ (Rect.unit (s := S100000x200) (fun a => cc0_transform_2 i a * S2048x200.size a) (fun a => (Pipeline.Clip.of (cc0_transform_2 i a) (S2048x200.size a) (S100000x200.size a)).extent (S2048x200.size a)) fun a => Pipeline.Clip.inb (Pipeline.Clip.ok_of (hstart0_2 i a))).WholeWords (EltTy.packing .f32)
  hwxs0_2 : ∀ i : grid0.Coords, EltTy.bits .f32 = 32 ∨ (Rect.unit (s := S2048x200) (fun _ => 0) (fun a => (Pipeline.Clip.of (cc0_transform_2 i a) (S2048x200.size a) (S100000x200.size a)).extent (S2048x200.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x200.size a < S100000x200.size a
  hwx0_3 : ∀ i : grid0.Coords, EltTy.bits .f32 = 32 ∨ (Rect.unit (s := S100000x200) (fun a => cc0_transform_3 i a * S2048x200.size a) (fun a => (Pipeline.Clip.of (cc0_transform_3 i a) (S2048x200.size a) (S100000x200.size a)).extent (S2048x200.size a)) fun a => Pipeline.Clip.inb (Pipeline.Clip.ok_of (hstart0_3 i a))).WholeWords (EltTy.packing .f32)
  hwxs0_3 : ∀ i : grid0.Coords, EltTy.bits .f32 = 32 ∨ (Rect.unit (s := S2048x200) (fun _ => 0) (fun a => (Pipeline.Clip.of (cc0_transform_3 i a) (S2048x200.size a) (S100000x200.size a)).extent (S2048x200.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x2048.size a < S512x100000.size a
  hwx0_4 : ∀ i : grid0.Coords, EltTy.bits .f32 = 32 ∨ (Rect.unit (s := S512x100000) (fun a => cc0_transform_4 i a * S512x2048.size a) (fun a => (Pipeline.Clip.of (cc0_transform_4 i a) (S512x2048.size a) (S512x100000.size a)).extent (S512x2048.size a)) fun a => Pipeline.Clip.inb (Pipeline.Clip.ok_of (hstart0_4 i a))).WholeWords (EltTy.packing .f32)
  hwxs0_4 : ∀ i : grid0.Coords, EltTy.bits .f32 = 32 ∨ (Rect.unit (s := S512x2048) (fun _ => 0) (fun a => (Pipeline.Clip.of (cc0_transform_4 i a) (S512x2048.size a) (S512x100000.size a)).extent (S512x2048.size a)) fun a => (Nat.zero_add _).trans_le (Pipeline.Clip.extent_le (Pipeline.Clip.ok_of (hstart0_4 i a)))).WholeWords (EltTy.packing .f32)

variable [Facts₀]

def gather_S100000x200_S512x1_S512x200_1_0_n_n_0_1_1200 : GatherDims S100000x200 S512x1 S512x200 where
  offsetDims := [1]
  collapsedSliceDims := [0]
  operandBatchingDims := []
  startIndicesBatchingDims := []
  startIndexMap := [0]
  indexVectorDim := 1
  sliceSizes := ![1, 200]
  wf := gather_S100000x200_S512x1_S512x200_1_0_n_n_0_1_1200_wf
def gather_S500x200_S512x1_S512x200_1_0_n_n_0_1_1200 : GatherDims S500x200 S512x1 S512x200 where
  offsetDims := [1]
  collapsedSliceDims := [0]
  operandBatchingDims := []
  startIndicesBatchingDims := []
  startIndexMap := [0]
  indexVectorDim := 1
  sliceSizes := ![1, 200]
  wf := gather_S500x200_S512x1_S512x200_1_0_n_n_0_1_1200_wf
def dot_S512x200_S2048x200_S512x2048_1_1_0_0_n_n : DotDims S512x200 S2048x200 S512x2048 where
  lhsContracting := [1]
  rhsContracting := [1]
  lhsNonContracting := [0]
  rhsNonContracting := [0]
  lhsBatch := []
  rhsBatch := []
  wf := dot_S512x200_S2048x200_S512x2048_1_1_0_0_n_n_wf

abbrev win0_0 : Pipeline.Window sig grid0 :=
  Pipeline.Window.ofSpec (Memref.whole main_v30) S512x200.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v33) S512x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg0) S2048x200.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg1) S2048x200.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v34) S512x2048.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x200 : Shape := ⟨2, ![100000, 200]⟩
abbrev S500x200 : Shape := ⟨2, ![500, 200]⟩
abbrev S512 : Shape := ⟨1, ![512]⟩
abbrev S_ : Shape := ⟨0, ![]⟩
abbrev S512x1 : Shape := ⟨2, ![512, 1]⟩
abbrev S512x200 : Shape := ⟨2, ![512, 200]⟩
abbrev S512x100000 : Shape := ⟨2, ![512, 100000]⟩

abbrev nBuf : Space → Nat
  | .hbm => 51
  | .vmem => 0
  | .smem => 0
  | _ => 0

abbrev bufTy : (tb : Table) → Fin (tcTables nBuf tb) → BufTy
  | .hbm, ⟨0, _⟩ => ⟨S100000x200, .f32⟩
  | .hbm, ⟨1, _⟩ => ⟨S100000x200, .f32⟩
  | .hbm, ⟨2, _⟩ => ⟨S500x200, .f32⟩
  | .hbm, ⟨3, _⟩ => ⟨S500x200, .f32⟩
  | .hbm, ⟨4, _⟩ => ⟨S512, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S512x200, .f32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S512x1, .i32⟩
  | .hbm, ⟨23, _⟩ => ⟨S512x200, .f32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x200, .f32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S512x1, .i32⟩
  | .hbm, ⟨41, _⟩ => ⟨S512x200, .f32⟩
  | .hbm, ⟨42, _⟩ => ⟨S512x200, .f32⟩
  | .hbm, ⟨43, _⟩ => ⟨S512x200, .f32⟩
  | .hbm, ⟨44, _⟩ => ⟨S512x200, .f32⟩
  | .hbm, ⟨45, _⟩ => ⟨S512x200, .f32⟩
  | .hbm, ⟨46, _⟩ => ⟨S512x200, .f32⟩
  | .hbm, ⟨47, _⟩ => ⟨S512x200, .f32⟩
  | .hbm, ⟨48, _⟩ => ⟨S512x100000, .f32⟩
  | .hbm, ⟨49, _⟩ => ⟨S512x100000, .f32⟩
  | .hbm, ⟨50, _⟩ => ⟨S512x100000, .f32⟩
  | _, _ => ⟨S100000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  gather_S100000x200_S512x1_S512x200_1_0_n_n_0_1_1200_wf : GatherDims.WF S100000x200 S512x1 S512x200 [1] [0] [] [0] [] 1 ![1, 200]
  gather_S500x200_S512x1_S512x200_1_0_n_n_0_1_1200_wf : GatherDims.WF S500x200 S512x1 S512x200 [1] [0] [] [0] [] 1 ![1, 200]
  dot_S512x200_S100000x200_S512x100000_1_1_0_0_n_n_wf : DotDims.WF S512x200 S100000x200 S512x100000 [1] [1] [0] [0] [] []

variable [Facts₀]

def gather_S100000x200_S512x1_S512x200_1_0_n_n_0_1_1200 : GatherDims S100000x200 S512x1 S512x200 where
  offsetDims := [1]
  collapsedSliceDims := [0]
  operandBatchingDims := []
  startIndicesBatchingDims := []
  startIndexMap := [0]
  indexVectorDim := 1
  sliceSizes := ![1, 200]
  wf := gather_S100000x200_S512x1_S512x200_1_0_n_n_0_1_1200_wf
def gather_S500x200_S512x1_S512x200_1_0_n_n_0_1_1200 : GatherDims S500x200 S512x1 S512x200 where
  offsetDims := [1]
  collapsedSliceDims := [0]
  operandBatchingDims := []
  startIndicesBatchingDims := []
  startIndexMap := [0]
  indexVectorDim := 1
  sliceSizes := ![1, 200]
  wf := gather_S500x200_S512x1_S512x200_1_0_n_n_0_1_1200_wf
def dot_S512x200_S100000x200_S512x100000_1_1_0_0_n_n : DotDims S512x200 S100000x200 S512x100000 where
  lhsContracting := [1]
  rhsContracting := [1]
  lhsNonContracting := [0]
  rhsNonContracting := [0]
  lhsBatch := []
  rhsBatch := []
  wf := dot_S512x200_S100000x200_S512x100000_1_1_0_0_n_n_wf

class Facts : Prop extends Facts₀ where

variable [Facts]
-- ==== Proof.WordScoreTile.lean ====
/-
  One grid point of the score kernel, as a statement about its five staging buffers.

  The kernel body reads its four input buffers whole — the two coefficient blocks (512 × 200) and the current
  tile of each entity table (2048 × 200) — and overwrites the whole output buffer (512 × 2048) with

      tile (x0, x1, x2, x3) = x0 · x2ᵀ + x1 · x3ᵀ

  (two products contracting the 200 feature columns, into zero accumulators, then added). Nothing else is
  touched: the inputs are left as found, and what the output buffer held before is read once and discarded.
  The statement holds at every float instance, for any contents of the buffers.
-/
import proofs.«124487_j56942676411136_2_alg».proof.Proof.Gen.Kernel.Frame
import proofs.«124487_j56942676411136_2_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Tile

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole-buffer rectangles the body loads and stores through. -/
abbrev coefRect : Rect S512x200 := Rect.unit (s := S512x200) ![0, 0] S512x200.size inb_S512x200_S512x200_0_0
abbrev entRect : Rect S2048x200 := Rect.unit (s := S2048x200) ![0, 0] S2048x200.size inb_S2048x200_S2048x200_0_0
abbrev outRect : Rect S512x2048 := Rect.unit (s := S512x2048) ![0, 0] S512x2048.size inb_S512x2048_S512x2048_0_0

theorem zeros2 : (![0, 0] : Fin 2 → Nat) = fun _ => 0 := funext fun a => by fin_cases a <;> rfl

/-- What the output buffer holds after the body, from the contents of the four input buffers. -/
def tile (x0 x1 : Vec F S512x200 .f32) (x2 x3 : Vec F S2048x200 .f32) : Vec F S512x2048 .f32 :=
  k0_pay1 x0 x1 x2 x3

/-- The one store, read back through the whole buffer, is its payload of the whole input buffers. -/
theorem canon_tile (x0 x1 : Vec F S512x200 .f32) (x2 x3 : Vec F S2048x200 .f32) :
    View.canon [(⟨outRect, k0_pay1 (View.ld x0 coefRect) (View.ld x1 coefRect) (View.ld x2 entRect) (View.ld x3 entRect)⟩ :
      View.Piece (Elt F) S512x2048 .f32)] = tile x0 x1 x2 x3 := by
  rw [View.canon_unit_zero zeros2, View.ld_unit_zero (S := S512x200) zeros2, View.ld_unit_zero (S := S512x200) zeros2,
    View.ld_unit_zero (S := S2048x200) zeros2, View.ld_unit_zero (S := S2048x200) zeros2]
  rfl

set_option maxHeartbeats 1000000 in
/-- The body on whole staging memrefs: the inputs at contents `x0 … x3`, the output at anything; it returns with the
    inputs as they were and the output at `tile x0 x1 x2 x3`. -/
theorem sound_kernel (c : Dev nD) (E : Set ℕ) (i : grid0.Coords)
    (a1 : Memref sig .tc .vmem S512x200 .f32) (h1 : a1.IsWhole) (a2 : Memref sig .tc .vmem S512x200 .f32) (h2 : a2.IsWhole)
    (a3 : Memref sig .tc .vmem S2048x200 .f32) (h3 : a3.IsWhole) (a4 : Memref sig .tc .vmem S2048x200 .f32) (h4 : a4.IsWhole)
    (a5 : Memref sig .tc .vmem S512x2048 .f32) (h5 : a5.IsWhole)
    (x0 x1 : Vec F S512x200 .f32) (x2 x3 : Vec F S2048x200 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare (tile x0 x1 x2 x3)) -∗ K ⟨⟩))
      ⊢ wp frame (wpE (defs₀ (F := F)) Variants.none c none) E (cc0__matmul_kernel i a1 h1 a2 h2 a3 h3 a4 h4 a5 h5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [← canon_tile]
  exact View.read_writes_eq_canon _ _ _ (fun y => ⟨_, List.mem_singleton_self _, View.mem_set_unit_zero zeros2 inb_S512x2048_S512x2048_0_0 y⟩)

end Cert.Kernel.Tile

end
-- ==== Proof.WordSweep.lean ====
/-
  The word-level program's sweep over the 49 entity tiles, as far as its frame needs it.

  Grid point `t` stages rows 2048·t … of each entity table (the last tile, t = 48, reaches 352 rows past the
  tables' 100000: those buffer rows hold words nothing names) beside the two coefficient blocks, which are fetched
  once. This file states what each of the five staging buffers holds from point to point, shows the kernel body
  keeps to it, and concludes the frame: the run terminates without a fault and leaves the six arguments as they
  were. What the body writes into the OUTPUT buffer is deliberately left unstated here — the frame does not read the
  result array — so nothing is asked of the matrix unit's arithmetic on words.
-/
import proofs.«124487_j56942676411136_2_alg».proof.Proof.WordScoreTile
import proofs.«124487_j56942676411136_2_alg».proof.Proof.Gen.Kernel.Launch
import proofs.«124487_j56942676411136_2_alg».proof.Proof.Gen.Kernel.Points
import Idealize.ShloMosaic.Lib.Pipeline.Frame
import Idealize.ShloMosaic.Lib.Pipeline.FrameBody
import Idealize.ShloMosaic.Lib.Tactic

set_option maxRecDepth 16384

noncomputable section

namespace Cert.Kernel.Sweep

open Cert.Kernel Cert.Kernel.Gen Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging buffers hold after each grid point -/

/-- Tile `t` of the first entity table as a full 2048-row buffer: the table's rows the tile covers, and zero rows
    where the last tile runs past the table's end (rows no score inside the result depends on). -/
def entR (c : Dev nD) (t : Fin cfg0.N) : Vec F S2048x200 .f32 :=
  win0_2.fill (grid0.coords t) (fun _ => Scalar.ofBits .f32 0#32) (iblk m c 2 t)
/-- The same tile of the second entity table. -/
def entI (c : Dev nD) (t : Fin cfg0.N) : Vec F S2048x200 .f32 :=
  win0_3.fill (grid0.coords t) (fun _ => Scalar.ofBits .f32 0#32) (iblk m c 3 t)

/-- The sweep's data on core `c`: the arrays as the region finds them; after point `t` the coefficient buffers hold
    their (one) block, the entity buffers tile `t`, and the output buffer the scores of the coefficients against that
    tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => entR m c t
    | ⟨3, _⟩ => entI m c t
    | ⟨4, _⟩ => tile (iblk m c 0 t) (iblk m c 1 t) (entR m c t) (entI m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = entR m c t := by dsimp only [dats]
theorem after_3 (c : Dev nD) (t : Fin cfg0.N) : (dats m 0 c).after 3 t = entI m c t := by dsimp only [dats]
theorem after_4 (c : Dev nD) (t : Fin cfg0.N) :
    (dats m 0 c).after 4 t = tile (iblk m c 0 t) (iblk m c 1 t) (entR m c t) (entI m c t) := by dsimp only [dats]

/-! ## What the body finds -/

/-- The coefficient buffers hold their block at every point (fetched once, never moved). -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The entity buffers are fetched at every point: tile `t`'s rows inside the table, and past them whatever the
    buffer held (`d`). -/
theorem before_2 (c : Dev nD) (t : Fin cfg0.N) (d) :
    (dats m 0 c).before 2 t d = win0_2.fill (grid0.coords t) d (iblk m c 2 t) := by
  rw [(dats m 0 c).before_fetched 2 t (fetch0_2 t)]
  unfold Dat.fetched Dat.blockOf iblk; rw [A_eq]
theorem before_3 (c : Dev nD) (t : Fin cfg0.N) (d) :
    (dats m 0 c).before 3 t d = win0_3.fill (grid0.coords t) d (iblk m c 3 t) := by
  rw [(dats m 0 c).before_fetched 3 t (fetch0_3 t)]
  unfold Dat.fetched Dat.blockOf iblk; rw [A_eq]

/-- The output buffer is written back at every point, so the body always finds it at contents nothing names. -/
theorem before_4 (c : Dev nD) (t : Fin cfg0.N) (d) : (dats m 0 c).before 4 t d = d := by
  refine (dats m 0 c).before_out_reset 4 rfl t ?_ d
  by_cases h : t.val = 0
  · exact .inl h
  · exact .inr ⟨h, flush0_4 _⟩

/-! ## The body's obligation, the output buffer's contents left unstated -/

/-- The windows whose buffer the obligation hands over and takes back at contents it does not state: the output. -/
abbrev forgetOut : Fin cfg0.W → Bool := fun | 0 => false | 1 => false | 2 => false | 3 => false | 4 => true | ⟨_ + 5, h⟩ => absurd h (Nat.not_lt.2 (Nat.le_add_left _ _))

/-- At every point the body finds the coefficient blocks and the current entity tiles (whatever lies past the
    tables' end in the last tile's buffers), leaves all four as found, and overwrites the output buffer. -/
theorem body_obligation (c : Dev nD) :
    BodyObligationLoose (dats (F := F) m 0 c) (defs₀ (F := F)) Variants.none () Set.univ forgetOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, after_0, after_1, after_2, after_3]
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (iblk m c 0 t) (iblk m c 1 t)
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  have e2 : win0_2.cut (grid0.coords t) (entR m c t) = iblk m c 2 t := win0_2.cut_fill _ _ _
  have e3 : win0_3.cut (grid0.coords t) (entI m c t) = iblk m c 3 t := win0_3.cut_fill _ _ _
  isplitl [H2]
  · iexists d2
    change _ ⊢ owns (c : Thread nD τ) (stage0_2 (cfg0.slots t 2)) fullShare (win0_2.fill (grid0.coords t) d2 (win0_2.cut (grid0.coords t) (entR m c t)))
    rw [e2]; try iexact H2
  isplitl [H3]
  · iexists d3
    change _ ⊢ owns (c : Thread nD τ) (stage0_3 (cfg0.slots t 3)) fullShare (win0_3.fill (grid0.coords t) d3 (win0_3.cut (grid0.coords t) (entI m c t)))
    rw [e3]; try iexact H3
  · iexists _; iexact H4

/-! ## The run and the frame -/

set_option backward.isDefEq.respectTransparency.types false in
/-- Every weakly fair execution of @main terminates without a fault; the input arrays end as the region found them
    and every buffer outside the pipeline as it was at the region's entry. -/
theorem run_main : θ_run defs (onTc (τ := τ) (main (F := F))) (s₀ m ρ)
    (Pipeline.RDat.FramePost cfg0 (fun c => (dats m 0 c).toRForget forgetOut) (V m)) :=
  Pipeline.RDat.θ_run_frame cfgs (0 : Fin 1) launch0 defs₀ Variants.none (fun c => (dats m 0 c).toRForget forgetOut) m ρ main
    (hbody := fun c => (body_obligation m c).toRForget)
    (hshare := fun c => Pipeline.RDat.share_full _ fun _ => rfl)
    (howed := fun _ _ => rfl) (V := V m) (hmain := hmain m Variants.none) (hA := fun c w => A_eq m c w) (hΦ := fun _ _ => rfl)

/-- The six argument arrays end unchanged: the two entity tables are inputs of the pipeline, never written; the
    others no window stages, and no host operation writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((congrFun (Pipeline.RDat.ArrAt_in ((dats m 0 c).toRForget forgetOut) 2 rfl _) _).mp ((h c).1 2)).trans ((A_eq m c 2).trans (V_main_arg0 m c)),
      ((congrFun (Pipeline.RDat.ArrAt_in ((dats m 0 c).toRForget forgetOut) 3 rfl _) _).mp ((h c).1 3)).trans ((A_eq m c 3).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.Kernel.Sweep

end
-- ==== Proof.ScoreTile.lean ====
/-
  One grid point of the score kernel, as a statement about its five staging buffers.

  The kernel body reads its four input buffers whole — the two coefficient blocks (512 × 200) and the current
  tile of each entity table (2048 × 200) — and overwrites the whole output buffer (512 × 2048) with

      tile (x0, x1, x2, x3) = x0 · x2ᵀ + x1 · x3ᵀ

  (two products contracting the 200 feature columns, into zero accumulators, then added). Nothing else is
  touched: the inputs are left as found, and what the output buffer held before is read once and discarded.
  The statement holds at every float instance, for any contents of the buffers.
-/
import proofs.«124487_j56942676411136_2_alg».proof.Proof.Gen.KernelIdeal.Frame
import proofs.«124487_j56942676411136_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Tile

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole-buffer rectangles the body loads and stores through. -/
abbrev coefRect : Rect S512x200 := Rect.unit (s := S512x200) ![0, 0] S512x200.size inb_S512x200_S512x200_0_0
abbrev entRect : Rect S2048x200 := Rect.unit (s := S2048x200) ![0, 0] S2048x200.size inb_S2048x200_S2048x200_0_0
abbrev outRect : Rect S512x2048 := Rect.unit (s := S512x2048) ![0, 0] S512x2048.size inb_S512x2048_S512x2048_0_0

theorem zeros2 : (![0, 0] : Fin 2 → Nat) = fun _ => 0 := funext fun a => by fin_cases a <;> rfl

/-- What the output buffer holds after the body, from the contents of the four input buffers. -/
def tile (x0 x1 : Vec F S512x200 .f32) (x2 x3 : Vec F S2048x200 .f32) : Vec F S512x2048 .f32 :=
  k0_pay1 x0 x1 x2 x3

/-- The one store, read back through the whole buffer, is its payload of the whole input buffers. -/
theorem canon_tile (x0 x1 : Vec F S512x200 .f32) (x2 x3 : Vec F S2048x200 .f32) :
    View.canon [(⟨outRect, k0_pay1 (View.ld x0 coefRect) (View.ld x1 coefRect) (View.ld x2 entRect) (View.ld x3 entRect)⟩ :
      View.Piece (Elt F) S512x2048 .f32)] = tile x0 x1 x2 x3 := by
  rw [View.canon_unit_zero zeros2, View.ld_unit_zero (S := S512x200) zeros2, View.ld_unit_zero (S := S512x200) zeros2,
    View.ld_unit_zero (S := S2048x200) zeros2, View.ld_unit_zero (S := S2048x200) zeros2]
  rfl

set_option maxHeartbeats 1000000 in
/-- The body on whole staging memrefs: the inputs at contents `x0 … x3`, the output at anything; it returns with the
    inputs as they were and the output at `tile x0 x1 x2 x3`. -/
theorem sound_kernel (c : Dev nD) (E : Set ℕ) (i : grid0.Coords)
    (a1 : Memref sig .tc .vmem S512x200 .f32) (h1 : a1.IsWhole) (a2 : Memref sig .tc .vmem S512x200 .f32) (h2 : a2.IsWhole)
    (a3 : Memref sig .tc .vmem S2048x200 .f32) (h3 : a3.IsWhole) (a4 : Memref sig .tc .vmem S2048x200 .f32) (h4 : a4.IsWhole)
    (a5 : Memref sig .tc .vmem S512x2048 .f32) (h5 : a5.IsWhole)
    (x0 x1 : Vec F S512x200 .f32) (x2 x3 : Vec F S2048x200 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare (tile x0 x1 x2 x3)) -∗ K ⟨⟩))
      ⊢ wp frame (wpE (defs₀ (F := F)) Variants.none c none) E (cc0__matmul_kernel i a1 h1 a2 h2 a3 h3 a4 h4 a5 h5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [← canon_tile]
  exact View.read_writes_eq_canon _ _ _ (fun y => ⟨_, List.mem_singleton_self _, View.mem_set_unit_zero zeros2 inb_S512x2048_S512x2048_0_0 y⟩)

end Cert.KernelIdeal.Tile

end
-- ==== Proof.TileValue.lean ====
/-
  One tile's scores at an index, over the extended reals.

  At the exact instance a narrowing of the float format is the identity and a product into a zero accumulator is
  the plain sum, so entry (b, q) of the tile the body writes is

      Σ_k x0[b,k] · x2[q,k]  +  Σ_k x1[b,k] · x3[q,k]        (k over the 200 feature columns)

  — it reads row b of the coefficient blocks and row q of the entity tiles and nothing else. Hence two pairs of
  entity buffers that agree on their first n rows give tiles that agree on their first n columns: what the last,
  overhanging tile needs, whose buffers hold unnamed words past the tables' end.
-/
import proofs.«124487_j56942676411136_2_alg».proof.Proof.ScoreTile
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen
open Idealize.ShloMosaic Idealize.ShloMosaic.ValueIdx

/-- The body's product record: [512,200] × [2048,200], contracting the second axis of each. -/
abbrev tileDot : DotDims S512x200 S2048x200 S512x2048 := dot_S512x200_S2048x200_S512x2048_1_1_0_0_n_n

theorem tileDot_lhs0 (i : S512x2048.Idx) (q : tileDot.contr.Idx) : (tileDot.lhsIdx i q 0).val = (i 0).val := by
  unfold DotDims.lhsIdx
  rw [dif_neg (show ¬(0 : Fin S512x200.rank) ∈ tileDot.lhsBatch by decide), dif_pos (show (0 : Fin S512x200.rank) ∈ tileDot.lhsNonContracting by decide)]
  rfl
theorem tileDot_lhs1 (i : S512x2048.Idx) (q : tileDot.contr.Idx) : (tileDot.lhsIdx i q 1).val = (q ⟨0, by decide⟩).val :=
  tileDot.lhsIdx_val_of_single rfl i q
theorem tileDot_rhs0 (i : S512x2048.Idx) (q : tileDot.contr.Idx) : (tileDot.rhsIdx i q 0).val = (i 1).val := by
  unfold DotDims.rhsIdx
  rw [dif_neg (show ¬(0 : Fin S2048x200.rank) ∈ tileDot.rhsBatch by decide), dif_pos (show (0 : Fin S2048x200.rank) ∈ tileDot.rhsNonContracting by decide)]
  rfl
theorem tileDot_rhs1 (i : S512x2048.Idx) (q : tileDot.contr.Idx) : (tileDot.rhsIdx i q 1).val = (q ⟨0, by decide⟩).val :=
  tileDot.rhsIdx_val_of_single rfl i q

/-- A product of the body into the zero accumulator, at entry (b, q): row b of the left factor against row q of
    the right one. -/
theorem product_apply {φ₁ φ₂ : FTy} (l : FVec Ideal S512x200 φ₁) (r : FVec Ideal S2048x200 φ₂) (b : Fin 512) (q : Fin 2048) :
    FloatOps.matmul tileDot none l r (constant S512x2048 .f32 0x00000000#32) (ix2 b q)
      = ∑ k : Fin 200, l (ix2 b k) * r (ix2 q k) := by
  rw [Ideal.matmul_constant_zero_apply, ← Equiv.sum_comp (contrEquiv1 tileDot 200 rfl rfl).symm]
  refine Finset.sum_congr rfl fun k _ => ?_
  have hk := contrEquiv1_symm_val tileDot 200 rfl rfl k
  have el : tileDot.lhsIdx (ix2 b q) ((contrEquiv1 tileDot 200 rfl rfl).symm k) = ix2 b k := funext fun a => Fin.ext (by
    match a with
    | ⟨0, _⟩ => exact tileDot_lhs0 _ _
    | ⟨1, _⟩ => exact (tileDot_lhs1 _ _).trans hk)
  have er : tileDot.rhsIdx (ix2 b q) ((contrEquiv1 tileDot 200 rfl rfl).symm k) = ix2 q k := funext fun a => Fin.ext (by
    match a with
    | ⟨0, _⟩ => exact tileDot_rhs0 _ _
    | ⟨1, _⟩ => exact (tileDot_rhs1 _ _).trans hk)
  rw [el, er]

/-- Entry (b, q) of the tile. -/
theorem tile_apply (x0 x1 : Vec Ideal S512x200 .f32) (x2 x3 : Vec Ideal S2048x200 .f32) (b : Fin 512) (q : Fin 2048) :
    tile (F := Ideal) x0 x1 x2 x3 (ix2 b q)
      = (∑ k : Fin 200, x0 (ix2 b k) * x2 (ix2 q k)) + ∑ k : Fin 200, x1 (ix2 b k) * x3 (ix2 q k) := by
  unfold tile k0_pay1
  simp only [matmul]
  rw [addf_apply, product_apply, product_apply, shapeCast_self, shapeCast_self]
  rfl

/-- The tile's first `n` columns read only the first `n` rows of the entity buffers. -/
theorem tile_congr_rows (x0 x1 : Vec Ideal S512x200 .f32) (x2 x3 y2 y3 : Vec Ideal S2048x200 .f32) (n : Nat)
    (h2 : ∀ (q : Fin 2048) (k : Fin 200), q.val < n → x2 (ix2 q k) = y2 (ix2 q k))
    (h3 : ∀ (q : Fin 2048) (k : Fin 200), q.val < n → x3 (ix2 q k) = y3 (ix2 q k))
    (b : Fin 512) (q : Fin 2048) (hq : q.val < n) :
    tile (F := Ideal) x0 x1 x2 x3 (ix2 b q) = tile (F := Ideal) x0 x1 y2 y3 (ix2 b q) := by
  rw [tile_apply, tile_apply]
  congr 1
  · exact Finset.sum_congr rfl fun k _ => by rw [h2 q k hq]
  · exact Finset.sum_congr rfl fun k _ => by rw [h3 q k hq]

end Cert.KernelIdeal.Tile

end
-- ==== Proof.Sweep.lean ====
/-
  The idealized program's sweep over the 49 entity tiles, with the scores it leaves.

  Grid point `t` stages rows 2048·t … of each entity table beside the two coefficient blocks (fetched once) and
  writes the scores of all 512 coefficient rows against those rows back to columns 2048·t … of the result. The
  last tile, t = 48, reaches 352 rows past the tables' 100000: its buffers hold words nothing names there, and the
  write-back moves only the 1696 columns inside the result. This file states what each of the five staging buffers
  holds from point to point — the entity buffers and the output buffer on the part their transfers move —, shows
  the kernel body keeps to it (over the extended reals a score column reads its own entity row only, so the unnamed
  rows reach none of the columns written back), and runs the pipeline: the run terminates without a fault, every
  array ends at what the sweep's data compute, and the six arguments are unchanged.
-/
import proofs.«124487_j56942676411136_2_alg».proof.Proof.TileValue
import proofs.«124487_j56942676411136_2_alg».proof.Proof.Gen.KernelIdeal.Launch
import proofs.«124487_j56942676411136_2_alg».proof.Proof.Gen.KernelIdeal.Points
import Idealize.ShloMosaic.Lib.Pipeline.Frame
import Idealize.ShloMosaic.Lib.Pipeline.FrameBody
import Idealize.ShloMosaic.Lib.Tactic

set_option maxRecDepth 16384

noncomputable section

namespace Cert.KernelIdeal.Sweep

open Cert.KernelIdeal Cert.KernelIdeal.Gen Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Data

variable (m : (ℓ : Loc nD τ sig) → Buf (Elt F) ℓ) (ρ : Dev nD → PrngReg)

/-! ## What the staging buffers hold after each grid point -/

/-- Tile `t` of the first entity table as a full 2048-row buffer: the table's rows the tile covers, and zero rows
    where the last tile runs past the table's end (rows no score inside the result depends on). -/
def entR (c : Dev nD) (t : Fin cfg0.N) : Vec F S2048x200 .f32 :=
  win0_2.fill (grid0.coords t) (fun _ => Scalar.ofBits .f32 0#32) (iblk m c 2 t)
/-- The same tile of the second entity table. -/
def entI (c : Dev nD) (t : Fin cfg0.N) : Vec F S2048x200 .f32 :=
  win0_3.fill (grid0.coords t) (fun _ => Scalar.ofBits .f32 0#32) (iblk m c 3 t)

/-- The sweep's data on core `c`: the arrays as the region finds them; after point `t` the coefficient buffers hold
    their (one) block, the entity buffers tile `t`, and the output buffer the scores of the coefficients against that
    tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => entR m c t
    | ⟨3, _⟩ => entI m c t
    | ⟨4, _⟩ => tile (iblk m c 0 t) (iblk m c 1 t) (entR m c t) (entI m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = entR m c t := by dsimp only [dats]
theorem after_3 (c : Dev nD) (t : Fin cfg0.N) : (dats m 0 c).after 3 t = entI m c t := by dsimp only [dats]
theorem after_4 (c : Dev nD) (t : Fin cfg0.N) :
    (dats m 0 c).after 4 t = tile (iblk m c 0 t) (iblk m c 1 t) (entR m c t) (entI m c t) := by dsimp only [dats]

/-! ## What the body finds -/

/-- The coefficient buffers hold their block at every point (fetched once, never moved). -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The entity buffers are fetched at every point: tile `t`'s rows inside the table, and past them whatever the
    buffer held (`d`). -/
theorem before_2 (c : Dev nD) (t : Fin cfg0.N) (d) :
    (dats m 0 c).before 2 t d = win0_2.fill (grid0.coords t) d (iblk m c 2 t) := by
  rw [(dats m 0 c).before_fetched 2 t (fetch0_2 t)]
  unfold Dat.fetched Dat.blockOf iblk; rw [A_eq]
theorem before_3 (c : Dev nD) (t : Fin cfg0.N) (d) :
    (dats m 0 c).before 3 t d = win0_3.fill (grid0.coords t) d (iblk m c 3 t) := by
  rw [(dats m 0 c).before_fetched 3 t (fetch0_3 t)]
  unfold Dat.fetched Dat.blockOf iblk; rw [A_eq]

/-- The output buffer is written back at every point, so the body always finds it at contents nothing names. -/
theorem before_4 (c : Dev nD) (t : Fin cfg0.N) (d) : (dats m 0 c).before 4 t d = d := by
  refine (dats m 0 c).before_out_reset 4 rfl t ?_ d
  by_cases h : t.val = 0
  · exact .inl h
  · exact .inr ⟨h, flush0_4 _⟩

end Data

/-! ## The exact instance: the output buffer stated on the columns written back -/

section Exact

open Idealize.ShloMosaic.ValueIdx

variable (m : (ℓ : Loc nD τ sig) → Buf (Elt Ideal) ℓ) (ρ : Dev nD → PrngReg)

/-- How far each window's transfer reaches at every grid point: an entity tile moves as many rows as the result's
    block moves columns (2048, at the last point 1696), and all 200 feature columns. -/
theorem reach : ∀ t : Fin cfg0.N,
    win0_2.xsize (grid0.coords t) 0 = win0_4.xsize (grid0.coords t) 1 ∧ win0_2.xsize (grid0.coords t) 1 = 200
    ∧ win0_3.xsize (grid0.coords t) 0 = win0_4.xsize (grid0.coords t) 1 ∧ win0_3.xsize (grid0.coords t) 1 = 200 :=
  (by decide +kernel : ∀ t : Fin grid0.N,
    win0_2.xsize (grid0.coords t) 0 = win0_4.xsize (grid0.coords t) 1 ∧ win0_2.xsize (grid0.coords t) 1 = 200
    ∧ win0_3.xsize (grid0.coords t) 0 = win0_4.xsize (grid0.coords t) 1 ∧ win0_3.xsize (grid0.coords t) 1 = 200)

/-- On the rows the fetch moves, an entity buffer holds the table's rows whatever it held before. -/
theorem entR_row (c : Dev nD) (t : Fin cfg0.N) (d : S2048x200.Idx → Elt Ideal .f32) (q : Fin 2048) (k : Fin 200)
    (hq : q.val < win0_4.xsize (grid0.coords t) 1) :
    win0_2.fill (grid0.coords t) d (iblk m c 2 t) (ix2 q k) = entR m c t (ix2 q k) := by
  have hm : win0_2.moved (grid0.coords t) (ix2 q k) = true := (win0_2.moved_iff _ _).mpr fun a => by
    match a with
    | ⟨0, _⟩ => exact lt_of_lt_of_eq hq (reach t).1.symm
    | ⟨1, _⟩ => exact lt_of_lt_of_eq k.isLt (reach t).2.1.symm
  unfold entR Window.fill; rw [dif_pos hm, dif_pos hm]
theorem entI_row (c : Dev nD) (t : Fin cfg0.N) (d : S2048x200.Idx → Elt Ideal .f32) (q : Fin 2048) (k : Fin 200)
    (hq : q.val < win0_4.xsize (grid0.coords t) 1) :
    win0_3.fill (grid0.coords t) d (iblk m c 3 t) (ix2 q k) = entI m c t (ix2 q k) := by
  have hm : win0_3.moved (grid0.coords t) (ix2 q k) = true := (win0_3.moved_iff _ _).mpr fun a => by
    match a with
    | ⟨0, _⟩ => exact lt_of_lt_of_eq hq (reach t).2.2.1.symm
    | ⟨1, _⟩ => exact lt_of_lt_of_eq k.isLt (reach t).2.2.2.symm
  unfold entI Window.fill; rw [dif_pos hm, dif_pos hm]

/-- The columns written back do not see what the entity buffers hold past the tables' end. -/
theorem cut_tile (c : Dev nD) (t : Fin cfg0.N) (d2 d3 : S2048x200.Idx → Elt Ideal .f32) :
    win0_4.cut (grid0.coords t) (tile (F := Ideal) (iblk m c 0 t) (iblk m c 1 t)
        (win0_2.fill (grid0.coords t) d2 (iblk m c 2 t)) (win0_3.fill (grid0.coords t) d3 (iblk m c 3 t)))
      = win0_4.cut (grid0.coords t) (tile (F := Ideal) (iblk m c 0 t) (iblk m c 1 t) (entR m c t) (entI m c t)) := by
  funext j
  have hj : win0_4.xinj (grid0.coords t) j
      = ix2 (⟨(j 0).val, Nat.lt_of_lt_of_le (j 0).isLt (win0_4.xsize_le (grid0.coords t) 0)⟩ : Fin 512)
          (⟨(j 1).val, Nat.lt_of_lt_of_le (j 1).isLt (win0_4.xsize_le (grid0.coords t) 1)⟩ : Fin 2048) :=
    funext fun a => match a with | ⟨0, _⟩ => rfl | ⟨1, _⟩ => rfl
  show tile (F := Ideal) _ _ _ _ (win0_4.xinj (grid0.coords t) j) = tile (F := Ideal) _ _ _ _ (win0_4.xinj (grid0.coords t) j)
  rw [hj]
  exact tile_congr_rows _ _ _ _ _ _ (win0_4.xsize (grid0.coords t) 1)
    (fun q k hq => entR_row m c t d2 q k hq) (fun q k hq => entI_row m c t d3 q k hq) _ _ (j 1).isLt

/-- At every point the body finds the coefficient blocks and the current entity tiles, leaves all four as found,
    and leaves in the output buffer, on the columns its write-back moves, the tile's scores. -/
theorem body_obligation (c : Dev nD) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, after_0, after_1, after_2, after_3, after_4]
  iapply (sound_kernel (F := Ideal) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (iblk m c 0 t) (iblk m c 1 t)
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  have e2 : win0_2.cut (grid0.coords t) (entR m c t) = iblk m c 2 t := win0_2.cut_fill _ _ _
  have e3 : win0_3.cut (grid0.coords t) (entI m c t) = iblk m c 3 t := win0_3.cut_fill _ _ _
  isplitl [H2]
  · iexists d2
    change _ ⊢ owns (c : Thread nD τ) (stage0_2 (cfg0.slots t 2)) fullShare (win0_2.fill (grid0.coords t) d2 (win0_2.cut (grid0.coords t) (entR m c t)))
    rw [e2]; try iexact H2
  isplitl [H3]
  · iexists d3
    change _ ⊢ owns (c : Thread nD τ) (stage0_3 (cfg0.slots t 3)) fullShare (win0_3.fill (grid0.coords t) d3 (win0_3.cut (grid0.coords t) (entI m c t)))
    rw [e3]; try iexact H3
  · iexists tile (F := Ideal) (iblk m c 0 t) (iblk m c 1 t) (win0_2.fill (grid0.coords t) d2 (iblk m c 2 t)) (win0_3.fill (grid0.coords t) d3 (iblk m c 3 t))
    change _ ⊢ owns (c : Thread nD τ) (stage0_4 (cfg0.slots t 4)) fullShare
      (win0_4.fill (grid0.coords t) (tile (F := Ideal) (iblk m c 0 t) (iblk m c 1 t) (win0_2.fill (grid0.coords t) d2 (iblk m c 2 t)) (win0_3.fill (grid0.coords t) d3 (iblk m c 3 t)))
        (win0_4.cut (grid0.coords t) (tile (F := Ideal) (iblk m c 0 t) (iblk m c 1 t) (entR m c t) (entI m c t))))
    rw [win0_4.fill_congr_cut (grid0.coords t) (cut_tile m c t d2 d3)]; try iexact H4

/-! ## The run -/

set_option backward.isDefEq.respectTransparency.types false in
/-- Every weakly fair execution of @main terminates without a fault; every array of the pipeline ends at what the
    sweep's data compute (the result: its entry contents overwritten, block by block, by the scores written back),
    every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The six argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Exact

end Cert.KernelIdeal.Sweep

end
-- ==== Proof.Scores.lean ====
/-
  The scores as one function of four arrays, over the extended reals.

  With coefficient matrices cr, ci (512 queries × 200 features) and entity tables er, ei (100000 entities × 200
  features), the score of query b against entity e is

      score b e  =  Σ_k cr[b,k] · er[e,k]  +  Σ_k ci[b,k] · ei[e,k]          (k over the 200 features)

  and `scores` is the 512 × 100000 table of them. Both programs compute this table: the kernel tile by tile (2048
  entities at a time), the reference by two whole matrix products; neither regroups a sum, so no law beyond the
  definitions is needed to join them, and nothing here depends on the entries being finite.
-/
import Idealize.ShloMosaic.PureOps.Ideal
import Idealize.ShloMosaic.Lib.ValueIdx

noncomputable section

namespace Cert.Scores

open Idealize.ShloMosaic Idealize.ShloMosaic.ValueIdx

/-- The score of query `b` against entity `e`. -/
def score (cr ci : (⟨2, ![512, 200]⟩ : Shape).Idx → EReal) (er ei : (⟨2, ![100000, 200]⟩ : Shape).Idx → EReal)
    (b : Fin 512) (e : Fin 100000) : EReal :=
  (∑ k : Fin 200, cr (ix2 b k) * er (ix2 e k)) + ∑ k : Fin 200, ci (ix2 b k) * ei (ix2 e k)

/-- The table of all scores, indexed (query, entity). -/
def scores (cr ci : (⟨2, ![512, 200]⟩ : Shape).Idx → EReal) (er ei : (⟨2, ![100000, 200]⟩ : Shape).Idx → EReal) :
    (⟨2, ![512, 100000]⟩ : Shape).Idx → EReal :=
  fun i => score cr ci er ei ⟨(i 0).val, (i 0).isLt⟩ ⟨(i 1).val, (i 1).isLt⟩

end Cert.Scores

end
-- ==== Proof.ResultArray.lean ====
/-
  The result array after the idealized program's run: the table of scores.

  Point `t` writes back columns 2048·t … of the result (at the last point the 1696 columns inside it), and what it
  writes there is that block of `Scores.scores` of the coefficient matrices and the entity tables as the region
  finds them: entry (b, q) of the tile is row b of the coefficients against row q of tile `t`, which is row
  2048·t + q of the tables. The 49 blocks cover every column, so the array ends holding the whole table.
-/
import proofs.«124487_j56942676411136_2_alg».proof.Proof.Sweep
import proofs.«124487_j56942676411136_2_alg».proof.Proof.Scores
import Idealize.ShloMosaic.Lib.Pipeline.Value

set_option maxRecDepth 16384

noncomputable section

namespace Cert.KernelIdeal.Sweep

open Cert.KernelIdeal Cert.KernelIdeal.Gen Cert.KernelIdeal.Tile

open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Where each window's block sits at point `t`: the coefficient blocks at the origin, tile `t` of the tables at
    row block `t`, the result's block at column block `t`, reaching to column min (2048·(t+1), 100000). -/
theorem place : ∀ t : Fin cfg0.N,
    win0_0.index t 0 = 0 ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0
    ∧ win0_4.index t 0 = 0 ∧ win0_4.index t 1 = t.val
    ∧ win0_4.xsize (grid0.coords t) 0 = 512
    ∧ ((t.val + 1) * 2048 ≤ 100000 → win0_4.xsize (grid0.coords t) 1 = 2048)
    ∧ (100000 < (t.val + 1) * 2048 → t.val * 2048 + win0_4.xsize (grid0.coords t) 1 = 100000) :=
  (by decide +kernel : ∀ t : Fin grid0.N,
    win0_0.index t 0 = 0 ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0
    ∧ win0_4.index t 0 = 0 ∧ win0_4.index t 1 = t.val
    ∧ win0_4.xsize (grid0.coords t) 0 = 512
    ∧ ((t.val + 1) * 2048 ≤ 100000 → win0_4.xsize (grid0.coords t) 1 = 2048)
    ∧ (100000 < (t.val + 1) * 2048 → t.val * 2048 + win0_4.xsize (grid0.coords t) 1 = 100000))

/-- Row `q` of tile `t`, where the fetch moved it, is row 2048·t + q of the table (`I` names that entry). -/
theorem entR_apply (c : Dev nD) (t : Fin cfg0.N) (q : Fin 2048) (k : Fin 200) (hq : q.val < win0_4.xsize (grid0.coords t) 1)
    (I : S100000x200.Idx) (h0 : (I 0).val = t.val * 2048 + q.val) (h1 : (I 1).val = k.val) :
    entR m c t (ix2 q k) = V m c main_arg0 I := by
  obtain ⟨-, -, -, -, a20, a21, -⟩ := place t
  have hm : win0_2.moved (grid0.coords t) (ix2 q k) = true := (win0_2.moved_iff _ _).mpr fun a => by
    match a with
    | ⟨0, _⟩ => exact lt_of_lt_of_eq hq (reach t).1.symm
    | ⟨1, _⟩ => exact lt_of_lt_of_eq k.isLt (reach t).2.1.symm
  unfold entR Window.fill; rw [dif_pos hm]
  show V m c main_arg0 (((cfg0.win 2).blk t).view.emb _) = V m c main_arg0 I
  refine congrArg _ (funext fun a => Fin.ext ?_)
  match a with
  | ⟨0, _⟩ => show win0_2.index t 0 * 2048 + 1 * q.val = (I 0).val; omega
  | ⟨1, _⟩ => show win0_2.index t 1 * 200 + 1 * k.val = (I 1).val; omega
theorem entI_apply (c : Dev nD) (t : Fin cfg0.N) (q : Fin 2048) (k : Fin 200) (hq : q.val < win0_4.xsize (grid0.coords t) 1)
    (I : S100000x200.Idx) (h0 : (I 0).val = t.val * 2048 + q.val) (h1 : (I 1).val = k.val) :
    entI m c t (ix2 q k) = V m c main_arg1 I := by
  obtain ⟨-, -, -, -, -, -, a30, a31, -⟩ := place t
  have hm : win0_3.moved (grid0.coords t) (ix2 q k) = true := (win0_3.moved_iff _ _).mpr fun a => by
    match a with
    | ⟨0, _⟩ => exact lt_of_lt_of_eq hq (reach t).2.2.1.symm
    | ⟨1, _⟩ => exact lt_of_lt_of_eq k.isLt (reach t).2.2.2.symm
  unfold entI Window.fill; rw [dif_pos hm]
  show V m c main_arg1 (((cfg0.win 3).blk t).view.emb _) = V m c main_arg1 I
  refine congrArg _ (funext fun a => Fin.ext ?_)
  match a with
  | ⟨0, _⟩ => show win0_3.index t 0 * 2048 + 1 * q.val = (I 0).val; omega
  | ⟨1, _⟩ => show win0_3.index t 1 * 200 + 1 * k.val = (I 1).val; omega

/-- The coefficient blocks are the whole coefficient matrices (`I` names the entry). -/
theorem coefR_apply (c : Dev nD) (t : Fin cfg0.N) (b : Fin 512) (k : Fin 200)
    (I : S512x200.Idx) (h0 : (I 0).val = b.val) (h1 : (I 1).val = k.val) :
    iblk m c 0 t (ix2 b k) = V m c main_v30 I := by
  obtain ⟨a00, a01, -⟩ := place t
  show V m c main_v30 (((cfg0.win 0).blk t).view.emb (ix2 b k)) = V m c main_v30 I
  refine congrArg _ (funext fun a => Fin.ext ?_)
  match a with
  | ⟨0, _⟩ => show win0_0.index t 0 * 512 + 1 * b.val = (I 0).val; omega
  | ⟨1, _⟩ => show win0_0.index t 1 * 200 + 1 * k.val = (I 1).val; omega
theorem coefI_apply (c : Dev nD) (t : Fin cfg0.N) (b : Fin 512) (k : Fin 200)
    (I : S512x200.Idx) (h0 : (I 0).val = b.val) (h1 : (I 1).val = k.val) :
    iblk m c 1 t (ix2 b k) = V m c main_v33 I := by
  obtain ⟨-, -, a10, a11, -⟩ := place t
  show V m c main_v33 (((cfg0.win 1).blk t).view.emb (ix2 b k)) = V m c main_v33 I
  refine congrArg _ (funext fun a => Fin.ext ?_)
  match a with
  | ⟨0, _⟩ => show win0_1.index t 0 * 512 + 1 * b.val = (I 0).val; omega
  | ⟨1, _⟩ => show win0_1.index t 1 * 200 + 1 * k.val = (I 1).val; omega

/-- What point `t` writes back is block `t` of the table of scores. -/
theorem flushed_scores (c : Dev nD) (t : Fin cfg0.N) :
    (dats m 0 c).flushed 4 t = ((cfg0.win 4).blk t).view.read (Elt Ideal)
      (Cert.Scores.scores (V m c main_v30) (V m c main_v33) (V m c main_arg0) (V m c main_arg1)) := by
  show (cfg0.win 4).cut (grid0.coords t) ((dats m 0 c).after 4 t) = _
  rw [after_4]
  obtain ⟨a00, a01, a10, a11, a20, a21, a30, a31, a40, a41, x40, x41, x42⟩ := place t
  funext j
  have hj : win0_4.xinj (grid0.coords t) j
      = ix2 (⟨(j 0).val, Nat.lt_of_lt_of_le (j 0).isLt (win0_4.xsize_le (grid0.coords t) 0)⟩ : Fin 512)
          (⟨(j 1).val, Nat.lt_of_lt_of_le (j 1).isLt (win0_4.xsize_le (grid0.coords t) 1)⟩ : Fin 2048) :=
    funext fun a => match a with | ⟨0, _⟩ => rfl | ⟨1, _⟩ => rfl
  show tile (F := Ideal) _ _ _ _ (win0_4.xinj (grid0.coords t) j)
    = Cert.Scores.scores _ _ _ _ (((cfg0.win 4).blk t).view.emb j)
  rw [hj, tile_apply]
  unfold Cert.Scores.scores Cert.Scores.score
  have e0 : ((((cfg0.win 4).blk t).view.emb j) 0).val = (j 0).val := by
    show win0_4.index t 0 * 512 + 1 * (j 0).val = (j 0).val; omega
  have e1 : ((((cfg0.win 4).blk t).view.emb j) 1).val = t.val * 2048 + (j 1).val := by
    show win0_4.index t 1 * 2048 + 1 * (j 1).val = t.val * 2048 + (j 1).val; rw [a41]; omega
  refine congrArg₂ (· + ·)
    (Finset.sum_congr rfl fun k _ => congrArg₂ (· * ·)
      (coefR_apply m c t _ k _ e0 rfl) (entR_apply m c t _ k (j 1).isLt _ e1 rfl))
    (Finset.sum_congr rfl fun k _ => congrArg₂ (· * ·)
      (coefI_apply m c t _ k _ e0 rfl) (entI_apply m c t _ k (j 1).isLt _ e1 rfl))

/-- An entry of the result lies in point `t`'s block iff its column is among the columns that block moves
    (every row is: the blocks span the 512 rows). -/
theorem mem_block (t : Fin cfg0.N) (i : S512x100000.Idx) :
    i ∈ ((cfg0.win 4).blk t).view.set ↔ ∀ a : Fin 2, win0_4.index t a * S512x2048.size a ≤ (i a).val
      ∧ (i a).val < win0_4.index t a * S512x2048.size a + win0_4.xsize (grid0.coords t) a := by
  show i ∈ ((View.whole main_v34).slice (win0_4.rect t)).set ↔ _
  rw [View.set_slice_whole, Rect.mem_set_unit]
  exact Iff.rfl

/-- Every entry of the result is in the block of the point its column's tile names. -/
theorem covered (i : S512x100000.Idx) :
    ∃ t : Fin cfg0.N, (cfg0.win 4).flush t = true ∧ i ∈ ((cfg0.win 4).blk t).view.set := by
  have hi0 : (i 0).val < 512 := (i 0).isLt
  have hi1 : (i 1).val < 100000 := (i 1).isLt
  have hN : (i 1).val / 2048 < cfg0.N := by show _ < grid0.N; rw [N_0]; omega
  obtain ⟨-, -, -, -, -, -, -, -, a40, a41, x40, x41, x42⟩ := place ⟨(i 1).val / 2048, hN⟩
  refine ⟨⟨(i 1).val / 2048, hN⟩, flush0_4 _, ?_⟩
  rw [mem_block]
  intro a
  match a with
  | ⟨0, _⟩ =>
    show win0_4.index ⟨(i 1).val / 2048, hN⟩ 0 * 512 ≤ (i 0).val
      ∧ (i 0).val < win0_4.index ⟨(i 1).val / 2048, hN⟩ 0 * 512 + win0_4.xsize (grid0.coords ⟨(i 1).val / 2048, hN⟩) 0
    rw [a40, x40]; omega
  | ⟨1, _⟩ =>
    show win0_4.index ⟨(i 1).val / 2048, hN⟩ 1 * 2048 ≤ (i 1).val
      ∧ (i 1).val < win0_4.index ⟨(i 1).val / 2048, hN⟩ 1 * 2048 + win0_4.xsize (grid0.coords ⟨(i 1).val / 2048, hN⟩) 1
    rw [a41]
    have x41' : ((i 1).val / 2048 + 1) * 2048 ≤ 100000 → win0_4.xsize (grid0.coords ⟨(i 1).val / 2048, hN⟩) 1 = 2048 := x41
    have x42' : 100000 < ((i 1).val / 2048 + 1) * 2048 → (i 1).val / 2048 * 2048 + win0_4.xsize (grid0.coords ⟨(i 1).val / 2048, hN⟩) 1 = 100000 := x42
    show (i 1).val / 2048 * 2048 ≤ (i 1).val ∧ (i 1).val < (i 1).val / 2048 * 2048 + win0_4.xsize (grid0.coords ⟨(i 1).val / 2048, hN⟩) 1
    by_cases hc : ((i 1).val / 2048 + 1) * 2048 ≤ 100000
    · rw [x41' hc]; omega
    · have := x42' (by omega); omega

/-- The result array after the run is the table of scores of the coefficient matrices and entity tables as the
    region finds them. -/
theorem result_eq (c : Dev nD) : (dats m 0 c).arrAt 4 cfg0.N
    = Cert.Scores.scores (V m c main_v30) (V m c main_v33) (V m c main_arg0) (V m c main_arg1) :=
  (dats m 0 c).arrAt_eq_of_cover 4 _ (fun t _ => flushed_scores m c t) (covered)

end Cert.KernelIdeal.Sweep

end
-- ==== Proof.ScoresRun.lean ====
/-
  The idealized program's run, stated over its arguments.

  Before the region, @main computes the two coefficient matrices on the host — gathers of the entity and relation
  rows the index vectors name, then rel_r·src_r − rel_i·src_i and rel_r·src_i + rel_i·src_r entry by entry — by
  the very operations, in the very order, of the reference's first 41 lines. So the matrices the region finds are
  the reference's stages %30 and %33 of the same six arguments, and the run ends with the result array at the
  table of scores of those stages against the two entity tables, the arguments unchanged.
-/
import proofs.«124487_j56942676411136_2_alg».proof.Proof.ResultArray
import proofs.«124487_j56942676411136_2_alg».proof.Proof.Gen.ReferenceIdeal.Read
import Idealize.ShloMosaic.Lib.StableHlo.Run

set_option maxRecDepth 16384

noncomputable section

namespace Cert.KernelIdeal.Sweep

open Cert.KernelIdeal Cert.KernelIdeal.Gen

open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The reference's coefficient stages of this program's arguments. -/
abbrev coefR (c : Dev nD) : S512x200.Idx → EReal :=
  Cert.ReferenceIdeal.Read.val_main_v30 (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
abbrev coefI (c : Dev nD) : S512x200.Idx → EReal :=
  Cert.ReferenceIdeal.Read.val_main_v33 (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

set_option maxHeartbeats 2000000 in
/-- The host operations before the region leave exactly those matrices. -/
theorem V_coefR (c : Dev nD) : (V m c main_v30 : S512x200.Idx → EReal) = coefR m c := by
  dsimp only [Gen.V, Gen.hostOps0]; after_results_simp <;> rfl
set_option maxHeartbeats 2000000 in
theorem V_coefI (c : Dev nD) : (V m c main_v33 : S512x200.Idx → EReal) = coefI m c := by
  dsimp only [Gen.V, Gen.hostOps0]; after_results_simp <;> rfl

/-- The run: the result array ends at the table of scores of the coefficient stages against the entity tables,
    and the six arguments end as they were. -/
theorem run_scores : θ_run defs (onTc (τ := τ) (main (F := Ideal))) ⟨m, fun _ => 0, ρ⟩ (fun r => ∀ c : Dev nD,
      r.2.mem ((c.tc : Thread nD τ).loc main_v34)
        = Cert.Scores.scores (coefR m c) (coefI m c) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).1 4).trans ((result_eq m c).trans (by rw [V_coefR, V_coefI, V_main_arg0, V_main_arg1])),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Sweep

end
-- ==== Proof.RefScores.lean ====
/-
  The reference's result is the table of scores.

  The reference ends with two whole matrix products — the coefficient matrices (its stages %30 and %33) against
  the two entity tables, contracting the 200 features — and their sum. Entry (b, e) of each product is the sum over
  k of row b of the coefficients times row e of the table, so the sum of the two is `Scores.score b e`.
-/
import proofs.«124487_j56942676411136_2_alg».proof.Proof.Gen.ReferenceIdeal.Read
import proofs.«124487_j56942676411136_2_alg».proof.Proof.Scores

noncomputable section

namespace Cert.ReferenceIdeal.RefScores

open Cert.ReferenceIdeal Cert.ReferenceIdeal.Gen Cert.ReferenceIdeal.Read
open Idealize.ShloMosaic Idealize.ShloMosaic.ValueIdx

/-- Read's index functions for the two products are (row of the query, feature) and (row of the entity, feature). -/
theorem lidx34 (i : S512x100000.Idx) (k : Fin 200) :
    lidx_main_v34 i k = ix2 (⟨(i 0).val, (i 0).isLt⟩ : Fin 512) k :=
  funext fun a => match a with | ⟨0, _⟩ => rfl | ⟨1, _⟩ => rfl
theorem ridx34 (i : S512x100000.Idx) (k : Fin 200) :
    ridx_main_v34 i k = ix2 (⟨(i 1).val, (i 1).isLt⟩ : Fin 100000) k :=
  funext fun a => match a with | ⟨0, _⟩ => rfl | ⟨1, _⟩ => rfl
theorem lidx35 (i : S512x100000.Idx) (k : Fin 200) :
    lidx_main_v35 i k = ix2 (⟨(i 0).val, (i 0).isLt⟩ : Fin 512) k :=
  funext fun a => match a with | ⟨0, _⟩ => rfl | ⟨1, _⟩ => rfl
theorem ridx35 (i : S512x100000.Idx) (k : Fin 200) :
    ridx_main_v35 i k = ix2 (⟨(i 1).val, (i 1).isLt⟩ : Fin 100000) k :=
  funext fun a => match a with | ⟨0, _⟩ => rfl | ⟨1, _⟩ => rfl

/-- The reference's last stage, as a function of the six arguments, is the table of scores of its own coefficient
    stages against the two entity tables. -/
theorem result_scores (x0 x1 : (⟨S100000x200, .f32⟩ : BufTy).Contents (Elt Ideal)) (x2 x3 : (⟨S500x200, .f32⟩ : BufTy).Contents (Elt Ideal))
    (x4 x5 : (⟨S512, .i32⟩ : BufTy).Contents (Elt Ideal)) :
    val_main_v36 (F := Ideal) x0 x1 x2 x3 x4 x5
      = Cert.Scores.scores (val_main_v30 (F := Ideal) x0 x1 x2 x3 x4 x5) (val_main_v33 (F := Ideal) x0 x1 x2 x3 x4 x5) x0 x1 := by
  funext i
  rw [val_main_v36_apply, val_main_v34_apply, val_main_v35_apply]
  unfold Cert.Scores.scores Cert.Scores.score
  simp only [lidx34, ridx34, lidx35, ridx35]
  rfl

end Cert.ReferenceIdeal.RefScores

end
-- ==== Proof.lean ====
/-
  The scores of 512 (head, relation) queries against all 100000 entities: a tiled kernel against two whole matrix
  products, equal over the extended reals.

  Both programs first gather the entity and relation rows the two index vectors name and combine them, entry by
  entry, into two 512 × 200 coefficient matrices coef_r = rel_r·src_r − rel_i·src_i and coef_i = rel_r·src_i +
  rel_i·src_r — by the same host operations in the same order. The reference then forms coef_r · entity_rᵀ +
  coef_i · entity_iᵀ as two products over the whole tables. The kernel sweeps the tables in 49 tiles of 2048
  entities: at tile t it multiplies the coefficients against rows 2048·t … of each table (into zero accumulators),
  adds the two, and writes columns 2048·t … of the result. The last tile reaches 352 rows past the tables' end;
  only its 1696 columns inside the result are written back.

  Over the extended reals a change of float format is the identity and a product into a zero accumulator is the
  plain sum over the 200 features, so entry (b, e) of either result is

      Σ_k coef_r[b,k]·entity_r[e,k]  +  Σ_k coef_i[b,k]·entity_i[e,k]            (`Scores.score`)

  — the two programs group the sums alike, so no finiteness of the inputs is used. A score column reads its own
  entity row only, which is why the unnamed buffer rows of the last tile reach nothing that is written back.

  The modules: Scores (the table as one function of four arrays) · ScoreTile / WordScoreTile (the kernel body at
  one grid point, at either instance) · TileValue (a tile's entry over the extended reals) · Sweep (the idealized
  program's staging buffers from point to point, the body keeping to it, the run and the frame) · WordSweep (the
  same for the word-level program, as far as its frame needs) · ResultArray (the 49 blocks written back are the
  table) · ScoresRun (the coefficient matrices are the reference's own stages; the run over the arguments) ·
  RefScores (the reference's last stage is the table). The idealization rewrote nothing, so the fourth claim is
  trivial.
-/
import proofs.«124487_j56942676411136_2_alg».proof.Defs
import proofs.«124487_j56942676411136_2_alg».proof.Proof.Gen.Kernel
import proofs.«124487_j56942676411136_2_alg».proof.Proof.Gen.KernelIdeal
import proofs.«124487_j56942676411136_2_alg».proof.Proof.Gen.ReferenceIdeal
import proofs.«124487_j56942676411136_2_alg».proof.Proof.Gen.ReferenceIdeal.Run
import proofs.«124487_j56942676411136_2_alg».proof.Proof.Gen.ReferenceIdeal.Read
import proofs.«124487_j56942676411136_2_alg».proof.Proof.Gen.Pre_finite_inputs
import proofs.«124487_j56942676411136_2_alg».proof.Proof.WordSweep
import proofs.«124487_j56942676411136_2_alg».proof.Proof.ScoresRun
import proofs.«124487_j56942676411136_2_alg».proof.Proof.RefScores
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments unchanged. -/
theorem frame_kernel [Cert.Kernel.Facts] [Cert.Pre_finite_inputs.Facts] : Cert.frame_Kernel :=
  fun m ρ _ => Cert.Kernel.Sweep.frame m ρ

/-- So does the idealized program. -/
theorem frame_kernelIdeal [Cert.KernelIdeal.Facts] [Cert.Pre_finite_inputs.Facts] : Cert.frame_KernelIdeal :=
  fun m ρ _ => Cert.KernelIdeal.Sweep.frame m ρ

/-- So does the reference: its run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the six arguments, both programs end with the result at the table of scores of the
    (same) coefficient stages against the (same) entity tables. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Scores.scores (Cert.KernelIdeal.Sweep.coefR m c) (Cert.KernelIdeal.Sweep.coefI m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Sweep.run_scores m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefScores.result_scores,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
